-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1000x512 : Shape := ⟨2, ![1000, 512]⟩
abbrev S1000x128 : Shape := ⟨2, ![1000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1000x40 : Shape := ⟨2, ![1000, 40]⟩
abbrev S1600000x40 : Shape := ⟨2, ![1600000, 40]⟩
abbrev S1x40 : Shape := ⟨2, ![1, 40]⟩
abbrev S1000 : Shape := ⟨1, ![1000]⟩
abbrev S1000x1 : Shape := ⟨2, ![1000, 1]⟩

abbrev nBuf : Space → Nat
  | .hbm => 46
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x40, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x40, .f32⟩
  | .hbm, ⟨38, _⟩ => ⟨S1600000x40, .f32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x40, .f32⟩
  | .local _ .vmem, ⟨13, _⟩ => ⟨S1000x40, .f32⟩
  | .local _ .vmem, ⟨14, _⟩ => ⟨S1000x40, .f32⟩
  | .local _ .vmem, ⟨15, _⟩ => ⟨S1000x40, .f32⟩
  | .local _ .vmem, ⟨16, _⟩ => ⟨S1000x40, .f32⟩
  | .local _ .vmem, ⟨17, _⟩ => ⟨S1x40, .f32⟩
  | .local _ .vmem, ⟨18, _⟩ => ⟨S1000x40, .f32⟩
  | .local _ .vmem, ⟨19, _⟩ => ⟨S1000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x40_S128x40_0_0 : ∀ a, (![0, 0] : Fin 2 → Nat) a + S128x40.size a ≤ S128x40.size a
  h_S128x40 : 0 < S128x40.numel
  inb_S1000x40_S1000x40_0_0 : ∀ a, (![0, 0] : Fin 2 → Nat) a + S1000x40.size a ≤ S1000x40.size a
  h_S1000x40 : 0 < S1000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S1000x40_S1000x40 : S1000x40.ShapeCasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  reduces_S1000x40_S1000 : S1000x40.Reduces [1] S1000
  shapeCasts_S1000_S1000x1 : S1000.ShapeCasts S1000x1
  broadcasts_S1000x1_S1000x40 : S1000x1.Broadcasts S1000x40
  dot_S1000x512_S512x128_S1000x128_1_0_0_1_n_n_wf : DotDims.WF S1000x512 S512x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x40_S1000x40_1_0_0_1_n_n_wf : DotDims.WF S1000x128 S128x40 S1000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x40.size a ≤ S100000x40.size a
  hwx2_2 : ∀ i : grid2.Coords, EltTy.bits .f32 = 32 ∨ (Rect.block (s := S100000x40) S1000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x40.size a ≤ S100000x40.size a
  hwx3_0 : ∀ i : grid3.Coords, EltTy.bits .f32 = 32 ∨ (Rect.block (s := S100000x40) S1000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x40.size a ≤ S100000x40.size a
  hwx3_2 : ∀ i : grid3.Coords, EltTy.bits .f32 = 32 ∨ (Rect.block (s := S100000x40) S1000x40.size (cc3_transform_2 i) (hinb3_2 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S1000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x40, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel program's run with its RESULT named: every weakly fair execution of @main terminates, nothing
  faulting, the eight argument arrays end as launched, and the result array ends at the contents the last of the
  six segments (four pipelined regions among two stretches of host operations) leaves in it — the fold `W6` of the
  segments' effects over the launch memory, read at the result's buffer.
-/
import proofs.«126803_j10703058501716_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the six segments from the launch memory: the final state holds every unscoped buffer at the last
    boundary's contents `W6`; read at the result's buffer and at the eight arguments (which no segment writes). -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.RefOps.lean ====
/-
  The reference network written as a composition of six whole-array functions over the extended reals, in the
  reference program's own operations: two dense layers (a matrix product over the feature axis), two edge
  propagations (gather the source rows, scale each by its edge weight, accumulate into the destination rows), a
  bias followed by max(·, 0), and a bias followed by the row-wise log-softmax
  `(y − M) − log Σ exp (y − M)`, `M` the row's maximum. `network` is their composition: what the reference
  computes from its eight arguments.
-/
import proofs.«126803_j10703058501716_1_alg».proof.ReferenceIdeal
import proofs.«126803_j10703058501716_1_alg».proof.Proof.Gen.ReferenceIdeal
import Idealize.ShloMosaic.PureOps.Ideal

noncomputable section

namespace Cert.Gcn

open Idealize.ShloMosaic Cert.ReferenceIdeal Cert.ReferenceIdeal.Facts₀

/-- An extended-real array of a given shape. -/
abbrev Arr (s : Shape) : Type := FVec Ideal s .f32
/-- An array of 32-bit words of a given shape. -/
abbrev Ints (s : Shape) : Type := IVec s 32

/-- First dense layer: `x · w`, contracting the 512 input features. -/
def dense1 (x : Arr S100000x512) (w : Arr S512x128) : Arr S100000x128 :=
  Host.dotGeneral (F := Ideal) dot_S100000x512_S512x128_S100000x128_1_0_0_1_n_n none x w

/-- Second dense layer: `x · w`, contracting the 128 hidden features. -/
def dense2 (x : Arr S100000x128) (w : Arr S128x40) : Arr S100000x40 :=
  Host.dotGeneral (F := Ideal) dot_S100000x128_S128x40_S100000x40_1_0_0_1_n_n none x w

/-- The source index of every edge, a negative one counted from the end. -/
def wrapSrc (src : Ints S1600000) : Ints S1600000 :=
  select (cmpi .slt src (broadcastInDim S1600000 ![] bcast_S_S1600000 (constantI S_ 32 0#32)))
    (addi src (broadcastInDim S1600000 ![] bcast_S_S1600000 (constantI S_ 32 100000#32))) src

/-- Edge propagation over 128 features: row `dst e` accumulates `weight e · h (src e)` over the edges `e`. -/
def spread128 (h : Arr S100000x128) (src dst : Ints S1600000) (ew : Arr S1600000) : Arr S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 ew))
      (Host.gather gather_S100000x128_S1600000x1_S1600000x128_1_0_n_n_0_1_1128 h
        (broadcastInDim S1600000x1 ![0] bcast_S1600000_S1600000x1_0 (wrapSrc src))))

/-- Edge propagation over 40 features. -/
def spread40 (h : Arr S100000x40) (src dst : Ints S1600000) (ew : Arr S1600000) : Arr S100000x40 :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (broadcastInDim S1600000x40 ![0, 1] bcast_S1600000x1_S1600000x40_0_1 (broadcastInDim S1600000x1 ![0] bcast_S1600000_S1600000x1_0 ew))
      (Host.gather gather_S100000x40_S1600000x1_S1600000x40_1_0_n_n_0_1_140 h
        (broadcastInDim S1600000x1 ![0] bcast_S1600000_S1600000x1_0 (wrapSrc src))))

/-- Bias, then max(·, 0): `max (x r q + b q) 0`. -/
def biasRelu (x : Arr S100000x128) (b : Arr S128) : Arr S100000x128 :=
  maximumf
    (addf x (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The row-wise log-softmax `(y − M) − log Σ exp (y − M)`, `M` the row's maximum (taken from −∞). -/
def logSoftmax (y : Arr S100000x40) : Arr S100000x40 :=
  let shifted : Arr S100000x40 :=
    subf y (broadcastInDim S100000x40 ![0, 1] bcast_S100000x1_S100000x40_0_1 (broadcastInDim S100000x1 ![0] bcast_S100000_S100000x1_0
      (maximumf (broadcastInDim S100000 ![] bcast_S_S100000 (constant (F := Ideal) S_ .f32 0xFF800000#32))
        (Host.reduce FloatOps.maximumf y (constant (F := Ideal) S_ .f32 0xFF800000#32) reducesTo_S100000x40_S100000_d1 h_S_))))
  subf shifted (broadcastInDim S100000x40 ![0, 1] bcast_S100000x1_S100000x40_0_1 (Host.log (broadcastInDim S100000x1 ![0] bcast_S100000_S100000x1_0
    (Host.reduceAdd (Host.exp shifted) (constant (F := Ideal) S_ .f32 0x00000000#32) reducesTo_S100000x40_S100000_d1 h_S_))))

/-- Bias, then the row-wise log-softmax. -/
def biasLogSoftmax (x : Arr S100000x40) (b : Arr S40) : Arr S100000x40 :=
  logSoftmax (addf x (broadcastInDim S100000x40 ![0, 1] bcast_S1x40_S100000x40_0_1 (broadcastInDim S1x40 ![1] bcast_S40_S1x40_1 b)))

/-- The whole network from the eight arguments (features, edge sources, edge destinations, edge weights, and the two
    layers' weights and biases). -/
def network (x : Arr S100000x512) (src dst : Ints S1600000) (ew : Arr S1600000) (w1 : Arr S512x128) (b1 : Arr S128)
    (w2 : Arr S128x40) (b2 : Arr S40) : Arr S100000x40 :=
  biasLogSoftmax (spread40 (dense2 (biasRelu (spread128 (dense1 x w1) src dst ew) b1) w2) src dst ew) b2

end Cert.Gcn

end
-- ==== Proof.Walk.lean ====
/-
  The result array of the idealized kernel program, read back through its six segments: the last region's output is
  the bias-and-log-softmax of what the second edge propagation (host operations) makes of the second product, whose
  left operand is the first bias-and-max region's output over the first edge propagation of the first product. Each
  region's output array is a whole-array function of the region's two input arrays (the four hypotheses below,
  proved region by region elsewhere); each host stretch is read operation by operation, from ANY contents of the
  buffers it starts from; an argument array is the same at every segment boundary, since no segment writes one.
-/
import proofs.«126803_j10703058501716_1_alg».proof.Proof.Gen.KernelIdeal.Frame
import proofs.«126803_j10703058501716_1_alg».proof.Proof.RefOps
import Idealize.ShloMosaic.Lib.Pipeline.Value
import Idealize.ShloMosaic.Lib.ValueIdx
import Idealize.ShloMosaic.Lib.StableHlo.Run

noncomputable section

namespace Cert.Gcn.Walk

open Idealize.ShloMosaic Idealize.ShloMosaic.TcCoe Idealize.ShloMosaic.ValueIdx Idealize.SL.Sem Idealize.ShloMosaic.StableHlo
open Cert.KernelIdeal Cert.KernelIdeal.Gen

/-! ## The two stretches of host operations, from any contents `U` of the buffers -/

section Host
variable (U : Valuation τ sig (Elt Ideal))

/-- The first stretch writes none of the arguments. -/
theorem hostA_arg1 : StableHlo.after hostOps1 U (Proc.devRef .tc main_arg1) = U (Proc.devRef .tc main_arg1) := by after_results
theorem hostA_arg2 : StableHlo.after hostOps1 U (Proc.devRef .tc main_arg2) = U (Proc.devRef .tc main_arg2) := by after_results
theorem hostA_arg3 : StableHlo.after hostOps1 U (Proc.devRef .tc main_arg3) = U (Proc.devRef .tc main_arg3) := by after_results
theorem hostA_arg6 : StableHlo.after hostOps1 U (Proc.devRef .tc main_arg6) = U (Proc.devRef .tc main_arg6) := by after_results
theorem hostA_arg7 : StableHlo.after hostOps1 U (Proc.devRef .tc main_arg7) = U (Proc.devRef .tc main_arg7) := by after_results

/-- It propagates the first product along the edges: the reference's propagation of the same four arrays. -/
theorem hostA_v13 : StableHlo.after hostOps1 U (Proc.devRef .tc main_v13)
    = Cert.Gcn.spread128 (U (Proc.devRef .tc main_v0)) (U (Proc.devRef .tc main_arg1)) (U (Proc.devRef .tc main_arg2)) (U (Proc.devRef .tc main_arg3)) := by
  after_results
  rfl

/-- and lays the first bias out as a row: entry `(0, q)` of the row is entry `q` of the bias. -/
theorem hostA_v14 (q : Fin 128) : (StableHlo.after hostOps1 U (Proc.devRef .tc main_v14) : S1x128.Idx → EReal) (ix2 (0 : Fin 1) q)
    = (U (Proc.devRef .tc main_arg5) : S128.Idx → EReal) (ix1 q) := by
  after_results
  show shapeCast S1x128 (U (Proc.devRef .tc main_arg5) : S128.Idx → EReal) shapeCasts_S128_S1x128 (ix2 (0 : Fin 1) q) = _
  refine (shapeCast_addUnit_apply ![128] _ _ _).trans (congrArg _ (funext fun a => ?_))
  match a with
  | ⟨0, _⟩ => rfl

/-- The second stretch propagates the second product along the edges -/
theorem hostB_v29 : StableHlo.after hostOps3 U (Proc.devRef .tc main_v29)
    = Cert.Gcn.spread40 (U (Proc.devRef .tc main_v16)) (U (Proc.devRef .tc main_arg1)) (U (Proc.devRef .tc main_arg2)) (U (Proc.devRef .tc main_arg3)) := by
  after_results
  rfl

/-- and lays the second bias out as a row. -/
theorem hostB_v30 (q : Fin 40) : (StableHlo.after hostOps3 U (Proc.devRef .tc main_v30) : S1x40.Idx → EReal) (ix2 (0 : Fin 1) q)
    = (U (Proc.devRef .tc main_arg7) : S40.Idx → EReal) (ix1 q) := by
  after_results
  show shapeCast S1x40 (U (Proc.devRef .tc main_arg7) : S40.Idx → EReal) shapeCasts_S40_S1x40 (ix2 (0 : Fin 1) q) = _
  refine (shapeCast_addUnit_apply ![40] _ _ _).trans (congrArg _ (funext fun a => ?_))
  match a with
  | ⟨0, _⟩ => rfl

end Host

/-! ## The boundaries of the six segments -/

variable (m : (ℓ : Loc nD τ sig) → Buf (Elt Ideal) ℓ) (ρ : Dev nD → PrngReg) (c : Dev nD)

/-- The contents a region finds, as a family over the cores and the references. -/
abbrev Entry : Type := (c : Dev nD) → (b : Ref sig .tc) → Buf (Elt Ideal) ((c : Thread nD τ).loc b)

/-- After the first region an array that is none of its three windows' is as launched. -/
theorem w1_arg1 : W1 (F := Ideal) m ρ c (Proc.devRef .tc main_arg1) = m ((c : Thread nD τ).loc main_arg1) :=
  W1_of_ne m ρ c main_arg1 (by decide)
theorem w1_arg2 : W1 (F := Ideal) m ρ c (Proc.devRef .tc main_arg2) = m ((c : Thread nD τ).loc main_arg2) :=
  W1_of_ne m ρ c main_arg2 (by decide)
theorem w1_arg3 : W1 (F := Ideal) m ρ c (Proc.devRef .tc main_arg3) = m ((c : Thread nD τ).loc main_arg3) :=
  W1_of_ne m ρ c main_arg3 (by decide)
theorem w1_arg5 : W1 (F := Ideal) m ρ c (Proc.devRef .tc main_arg5) = m ((c : Thread nD τ).loc main_arg5) :=
  W1_of_ne m ρ c main_arg5 (by decide)
theorem w1_arg6 : W1 (F := Ideal) m ρ c (Proc.devRef .tc main_arg6) = m ((c : Thread nD τ).loc main_arg6) :=
  W1_of_ne m ρ c main_arg6 (by decide)
theorem w1_arg7 : W1 (F := Ideal) m ρ c (Proc.devRef .tc main_arg7) = m ((c : Thread nD τ).loc main_arg7) :=
  W1_of_ne m ρ c main_arg7 (by decide)

/-- The first host stretch writes no argument. -/
theorem w2_arg1 : W2 (F := Ideal) m ρ c (Proc.devRef .tc main_arg1) = m ((c : Thread nD τ).loc main_arg1) :=
  (hostA_arg1 (W1 m ρ c)).trans (w1_arg1 m ρ c)
theorem w2_arg2 : W2 (F := Ideal) m ρ c (Proc.devRef .tc main_arg2) = m ((c : Thread nD τ).loc main_arg2) :=
  (hostA_arg2 (W1 m ρ c)).trans (w1_arg2 m ρ c)
theorem w2_arg3 : W2 (F := Ideal) m ρ c (Proc.devRef .tc main_arg3) = m ((c : Thread nD τ).loc main_arg3) :=
  (hostA_arg3 (W1 m ρ c)).trans (w1_arg3 m ρ c)
theorem w2_arg6 : W2 (F := Ideal) m ρ c (Proc.devRef .tc main_arg6) = m ((c : Thread nD τ).loc main_arg6) :=
  (hostA_arg6 (W1 m ρ c)).trans (w1_arg6 m ρ c)
theorem w2_arg7 : W2 (F := Ideal) m ρ c (Proc.devRef .tc main_arg7) = m ((c : Thread nD τ).loc main_arg7) :=
  (hostA_arg7 (W1 m ρ c)).trans (w1_arg7 m ρ c)

/-- Neither does the second region (its windows are the propagated array, the bias row and its own output) -/
theorem w3_arg1 : W3 (F := Ideal) m ρ c (Proc.devRef .tc main_arg1) = m ((c : Thread nD τ).loc main_arg1) :=
  (W3_of_ne m ρ c main_arg1 (by decide)).trans (w2_arg1 m ρ c)
theorem w3_arg2 : W3 (F := Ideal) m ρ c (Proc.devRef .tc main_arg2) = m ((c : Thread nD τ).loc main_arg2) :=
  (W3_of_ne m ρ c main_arg2 (by decide)).trans (w2_arg2 m ρ c)
theorem w3_arg3 : W3 (F := Ideal) m ρ c (Proc.devRef .tc main_arg3) = m ((c : Thread nD τ).loc main_arg3) :=
  (W3_of_ne m ρ c main_arg3 (by decide)).trans (w2_arg3 m ρ c)
theorem w3_arg6 : W3 (F := Ideal) m ρ c (Proc.devRef .tc main_arg6) = m ((c : Thread nD τ).loc main_arg6) :=
  (W3_of_ne m ρ c main_arg6 (by decide)).trans (w2_arg6 m ρ c)
theorem w3_arg7 : W3 (F := Ideal) m ρ c (Proc.devRef .tc main_arg7) = m ((c : Thread nD τ).loc main_arg7) :=
  (W3_of_ne m ρ c main_arg7 (by decide)).trans (w2_arg7 m ρ c)

/-- nor the third, which only READS the second layer's weights. -/
theorem w4_arg1 : W4 (F := Ideal) m ρ c (Proc.devRef .tc main_arg1) = m ((c : Thread nD τ).loc main_arg1) :=
  (W4_of_ne m ρ c main_arg1 (by decide)).trans (w3_arg1 m ρ c)
theorem w4_arg2 : W4 (F := Ideal) m ρ c (Proc.devRef .tc main_arg2) = m ((c : Thread nD τ).loc main_arg2) :=
  (W4_of_ne m ρ c main_arg2 (by decide)).trans (w3_arg2 m ρ c)
theorem w4_arg3 : W4 (F := Ideal) m ρ c (Proc.devRef .tc main_arg3) = m ((c : Thread nD τ).loc main_arg3) :=
  (W4_of_ne m ρ c main_arg3 (by decide)).trans (w3_arg3 m ρ c)
theorem w4_arg7 : W4 (F := Ideal) m ρ c (Proc.devRef .tc main_arg7) = m ((c : Thread nD τ).loc main_arg7) :=
  (W4_of_ne m ρ c main_arg7 (by decide)).trans (w3_arg7 m ρ c)

section Regions
variable (H0 : ∀ (V : Entry) (c : Dev nD), (dat0 (F := Ideal) V c).arrAt 2 cfg0.N = Cert.Gcn.dense1 (V c main_arg0) (V c main_arg4))
variable (H1 : ∀ (V : Entry) (c : Dev nD) (b : Cert.Gcn.Arr Cert.ReferenceIdeal.S128),
    (∀ q : Fin 128, (V c main_v14 : S1x128.Idx → EReal) (ix2 (0 : Fin 1) q) = b (ix1 q)) →
    (dat1 (F := Ideal) V c).arrAt 2 cfg1.N = Cert.Gcn.biasRelu (V c main_v13) b)
variable (H2 : ∀ (V : Entry) (c : Dev nD), (dat2 (F := Ideal) V c).arrAt 2 cfg2.N = Cert.Gcn.dense2 (V c main_v15) (V c main_arg6))
variable (H3 : ∀ (V : Entry) (c : Dev nD) (b : Cert.Gcn.Arr Cert.ReferenceIdeal.S40),
    (∀ q : Fin 40, (V c main_v30 : S1x40.Idx → EReal) (ix2 (0 : Fin 1) q) = b (ix1 q)) →
    (dat3 (F := Ideal) V c).arrAt 2 cfg3.N = Cert.Gcn.biasLogSoftmax (V c main_v29) b)
include H0 H1 H2 H3

/-- After the first region its output array is the first product of the launched features and weights. -/
theorem w1_v0 : W1 (F := Ideal) m ρ c (Proc.devRef .tc main_v0) = Cert.Gcn.dense1 (m ((c : Thread nD τ).loc main_arg0)) (m ((c : Thread nD τ).loc main_arg4)) :=
  (W1_arr m ρ c 2).trans (H0 (V0 m ρ) c)

/-- The first host stretch propagates it along the edges. -/
theorem w2_v13 : W2 (F := Ideal) m ρ c (Proc.devRef .tc main_v13)
    = Cert.Gcn.spread128 (Cert.Gcn.dense1 (m ((c : Thread nD τ).loc main_arg0)) (m ((c : Thread nD τ).loc main_arg4))) (m ((c : Thread nD τ).loc main_arg1)) (m ((c : Thread nD τ).loc main_arg2)) (m ((c : Thread nD τ).loc main_arg3)) :=
  (hostA_v13 (W1 m ρ c)).trans
    (congr (congr (congr (congrArg Cert.Gcn.spread128 (w1_v0 m ρ c H0 H1 H2 H3)) (w1_arg1 m ρ c)) (w1_arg2 m ρ c)) (w1_arg3 m ρ c))

/-- The bias row the second region finds holds the launched bias. -/
theorem w2_v14 (q : Fin 128) : (V2 (F := Ideal) m ρ c main_v14 : S1x128.Idx → EReal) (ix2 (0 : Fin 1) q) = ((m ((c : Thread nD τ).loc main_arg5)) : S128.Idx → EReal) (ix1 q) :=
  (hostA_v14 (W1 m ρ c) q).trans (congrArg (fun f : S128.Idx → EReal => f (ix1 q)) (w1_arg5 m ρ c))

/-- After the second region its output is the bias-and-max of the propagated first product. -/
theorem w3_v15 : W3 (F := Ideal) m ρ c (Proc.devRef .tc main_v15)
    = Cert.Gcn.biasRelu (Cert.Gcn.spread128 (Cert.Gcn.dense1 (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)) :=
  (W3_arr m ρ c 2).trans ((H1 (V2 m ρ) c (m ((c : Thread nD τ).loc main_arg5)) (w2_v14 m ρ c H0 H1 H2 H3)).trans
    (congrArg (fun x => Cert.Gcn.biasRelu x (m ((c : Thread nD τ).loc main_arg5))) (w2_v13 m ρ c H0 H1 H2 H3)))

/-- After the third region its output is the second product. -/
theorem w4_v16 : W4 (F := Ideal) m ρ c (Proc.devRef .tc main_v16)
    = Cert.Gcn.dense2 (Cert.Gcn.biasRelu (Cert.Gcn.spread128 (Cert.Gcn.dense1 (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5))) (m ((c : Thread nD τ).loc main_arg6)) :=
  (W4_arr m ρ c 2).trans ((H2 (V3 m ρ) c).trans
    (congr (congrArg Cert.Gcn.dense2 (w3_v15 m ρ c H0 H1 H2 H3)) (w3_arg6 m ρ c)))

/-- The second host stretch propagates it along the edges. -/
theorem w5_v29 : W5 (F := Ideal) m ρ c (Proc.devRef .tc main_v29)
    = Cert.Gcn.spread40 (Cert.Gcn.dense2 (Cert.Gcn.biasRelu (Cert.Gcn.spread128 (Cert.Gcn.dense1 (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5))) (m ((c : Thread nD τ).loc main_arg6))) (m ((c : Thread nD τ).loc main_arg1)) (m ((c : Thread nD τ).loc main_arg2)) (m ((c : Thread nD τ).loc main_arg3)) :=
  (hostB_v29 (W4 m ρ c)).trans
    (congr (congr (congr (congrArg Cert.Gcn.spread40 (w4_v16 m ρ c H0 H1 H2 H3)) (w4_arg1 m ρ c)) (w4_arg2 m ρ c)) (w4_arg3 m ρ c))

/-- The bias row the last region finds holds the launched second bias. -/
theorem w5_v30 (q : Fin 40) : (V5 (F := Ideal) m ρ c main_v30 : S1x40.Idx → EReal) (ix2 (0 : Fin 1) q) = ((m ((c : Thread nD τ).loc main_arg7)) : S40.Idx → EReal) (ix1 q) :=
  (hostB_v30 (W4 m ρ c) q).trans (congrArg (fun f : S40.Idx → EReal => f (ix1 q)) (w4_arg7 m ρ c))

/-- THE RESULT ARRAY after the last segment is the reference network of the eight launched arguments. -/
theorem result_eq : W6 (F := Ideal) m ρ c (Proc.devRef .tc main_v31)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Cert.Gcn.network
  exact (W6_arr m ρ c 2).trans ((H3 (V5 m ρ) c (m ((c : Thread nD τ).loc main_arg7)) (w5_v30 m ρ c H0 H1 H2 H3)).trans
    (congrArg (fun x => Cert.Gcn.biasLogSoftmax x (m ((c : Thread nD τ).loc main_arg7))) (w5_v29 m ρ c H0 H1 H2 H3)))

end Regions

end Cert.Gcn.Walk

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.DenseLayers.lean ====
/-
  The two dense layers. A region's grid point `t` multiplies rows 1000·t … 1000·t + 999 of the left array by the whole
  right array; at the extended reals the change of float format on the way in is the identity and the block product
  read at `(p, q)` is `Σ_k x (1000·t + p, k) · w (k, q)`: entry `(1000·t + p, q)` of the whole product, which is what the
  host's contraction of the two whole arrays computes there. The 100 blocks tile the rows, so after the region the
  output array is the whole product of the two arrays the region found.
-/
import proofs.«126803_j10703058501716_1_alg».proof.Proof.Gen.KernelIdeal.Frame
import proofs.«126803_j10703058501716_1_alg».proof.Proof.RefOps
import proofs.«126803_j10703058501716_1_alg».proof.Proof.LibMatProd
import Idealize.ShloMosaic.Lib.Pipeline.Value
import Idealize.ShloMosaic.Lib.ValueIdx
import Idealize.ShloMosaic.PureOps.Ideal.Laws

noncomputable section

namespace Cert.Gcn.Dense

open Idealize.ShloMosaic Idealize.ShloMosaic.TcCoe Idealize.ShloMosaic.ValueIdx Idealize.SL.Sem Cert.KernelIdeal Cert.KernelIdeal.Gen
open Idealize.ShloMosaic.Pipeline (Dat)

/-- A product of extended reals changes factor by factor. -/
theorem mul_eq_mul_of_eq {a a' b b' : EReal} (ha : a = a') (hb : b = b') : a * b = a' * b' := by rw [ha, hb]

/-! ## The four contractions of the two layers (the whole arrays' and the row blocks'): which coordinate each
    operand index takes from where, read off each record -/

theorem lhs0_ref1 (i) (q : Cert.ReferenceIdeal.dot_S100000x512_S512x128_S100000x128_1_0_0_1_n_n.contr.Idx) : (Cert.ReferenceIdeal.dot_S100000x512_S512x128_S100000x128_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x128_S100000x128_1_0_0_1_n_n.lhsBatch by decide), dif_pos (show (0 : Fin Cert.ReferenceIdeal.S100000x512.rank) ∈ Cert.ReferenceIdeal.dot_S100000x512_S512x128_S100000x128_1_0_0_1_n_n.lhsNonContracting by decide)]
  rfl
theorem lhs1_ref1 (i) (q : Cert.ReferenceIdeal.dot_S100000x512_S512x128_S100000x128_1_0_0_1_n_n.contr.Idx) : (Cert.ReferenceIdeal.dot_S100000x512_S512x128_S100000x128_1_0_0_1_n_n.lhsIdx i q 1).val = (q ⟨0, by decide⟩).val :=
  Cert.ReferenceIdeal.dot_S100000x512_S512x128_S100000x128_1_0_0_1_n_n.lhsIdx_val_of_single rfl i q
theorem rhs0_ref1 (i) (q : Cert.ReferenceIdeal.dot_S100000x512_S512x128_S100000x128_1_0_0_1_n_n.contr.Idx) : (Cert.ReferenceIdeal.dot_S100000x512_S512x128_S100000x128_1_0_0_1_n_n.rhsIdx i q 0).val = (q ⟨0, by decide⟩).val :=
  Cert.ReferenceIdeal.dot_S100000x512_S512x128_S100000x128_1_0_0_1_n_n.rhsIdx_val_of_single rfl i q
theorem rhs1_ref1 (i) (q : Cert.ReferenceIdeal.dot_S100000x512_S512x128_S100000x128_1_0_0_1_n_n.contr.Idx) : (Cert.ReferenceIdeal.dot_S100000x512_S512x128_S100000x128_1_0_0_1_n_n.rhsIdx i q 1).val = (i 1).val := by
  unfold DotDims.rhsIdx
  rw [dif_neg (show ¬(1 : Fin Cert.ReferenceIdeal.S512x128.rank) ∈ Cert.ReferenceIdeal.dot_S100000x512_S512x128_S100000x128_1_0_0_1_n_n.rhsBatch by decide), dif_pos (show (1 : Fin Cert.ReferenceIdeal.S512x128.rank) ∈ Cert.ReferenceIdeal.dot_S100000x512_S512x128_S100000x128_1_0_0_1_n_n.rhsNonContracting by decide)]
  rfl
theorem lhs0_blk1 (i) (q : dot_S1000x512_S512x128_S1000x128_1_0_0_1_n_n.contr.Idx) : (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem lhs1_blk1 (i) (q : dot_S1000x512_S512x128_S1000x128_1_0_0_1_n_n.contr.Idx) : (dot_S1000x512_S512x128_S1000x128_1_0_0_1_n_n.lhsIdx i q 1).val = (q ⟨0, by decide⟩).val :=
  dot_S1000x512_S512x128_S1000x128_1_0_0_1_n_n.lhsIdx_val_of_single rfl i q
theorem rhs0_blk1 (i) (q : dot_S1000x512_S512x128_S1000x128_1_0_0_1_n_n.contr.Idx) : (dot_S1000x512_S512x128_S1000x128_1_0_0_1_n_n.rhsIdx i q 0).val = (q ⟨0, by decide⟩).val :=
  dot_S1000x512_S512x128_S1000x128_1_0_0_1_n_n.rhsIdx_val_of_single rfl i q
theorem rhs1_blk1 (i) (q : dot_S1000x512_S512x128_S1000x128_1_0_0_1_n_n.contr.Idx) : (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl
theorem lhs0_ref2 (i) (q : Cert.ReferenceIdeal.dot_S100000x128_S128x40_S100000x40_1_0_0_1_n_n.contr.Idx) : (Cert.ReferenceIdeal.dot_S100000x128_S128x40_S100000x40_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x40_S100000x40_1_0_0_1_n_n.lhsBatch by decide), dif_pos (show (0 : Fin Cert.ReferenceIdeal.S100000x128.rank) ∈ Cert.ReferenceIdeal.dot_S100000x128_S128x40_S100000x40_1_0_0_1_n_n.lhsNonContracting by decide)]
  rfl
theorem lhs1_ref2 (i) (q : Cert.ReferenceIdeal.dot_S100000x128_S128x40_S100000x40_1_0_0_1_n_n.contr.Idx) : (Cert.ReferenceIdeal.dot_S100000x128_S128x40_S100000x40_1_0_0_1_n_n.lhsIdx i q 1).val = (q ⟨0, by decide⟩).val :=
  Cert.ReferenceIdeal.dot_S100000x128_S128x40_S100000x40_1_0_0_1_n_n.lhsIdx_val_of_single rfl i q
theorem rhs0_ref2 (i) (q : Cert.ReferenceIdeal.dot_S100000x128_S128x40_S100000x40_1_0_0_1_n_n.contr.Idx) : (Cert.ReferenceIdeal.dot_S100000x128_S128x40_S100000x40_1_0_0_1_n_n.rhsIdx i q 0).val = (q ⟨0, by decide⟩).val :=
  Cert.ReferenceIdeal.dot_S100000x128_S128x40_S100000x40_1_0_0_1_n_n.rhsIdx_val_of_single rfl i q
theorem rhs1_ref2 (i) (q : Cert.ReferenceIdeal.dot_S100000x128_S128x40_S100000x40_1_0_0_1_n_n.contr.Idx) : (Cert.ReferenceIdeal.dot_S100000x128_S128x40_S100000x40_1_0_0_1_n_n.rhsIdx i q 1).val = (i 1).val := by
  unfold DotDims.rhsIdx
  rw [dif_neg (show ¬(1 : Fin Cert.ReferenceIdeal.S128x40.rank) ∈ Cert.ReferenceIdeal.dot_S100000x128_S128x40_S100000x40_1_0_0_1_n_n.rhsBatch by decide), dif_pos (show (1 : Fin Cert.ReferenceIdeal.S128x40.rank) ∈ Cert.ReferenceIdeal.dot_S100000x128_S128x40_S100000x40_1_0_0_1_n_n.rhsNonContracting by decide)]
  rfl
theorem lhs0_blk2 (i) (q : dot_S1000x128_S128x40_S1000x40_1_0_0_1_n_n.contr.Idx) : (dot_S1000x128_S128x40_S1000x40_1_0_0_1_n_n.lhsIdx i q 0).val = (i 0).val := by
  unfold DotDims.lhsIdx
  rw [dif_neg (show ¬(0 : Fin S1000x128.rank) ∈ dot_S1000x128_S128x40_S1000x40_1_0_0_1_n_n.lhsBatch by decide), dif_pos (show (0 : Fin S1000x128.rank) ∈ dot_S1000x128_S128x40_S1000x40_1_0_0_1_n_n.lhsNonContracting by decide)]
  rfl
theorem lhs1_blk2 (i) (q : dot_S1000x128_S128x40_S1000x40_1_0_0_1_n_n.contr.Idx) : (dot_S1000x128_S128x40_S1000x40_1_0_0_1_n_n.lhsIdx i q 1).val = (q ⟨0, by decide⟩).val :=
  dot_S1000x128_S128x40_S1000x40_1_0_0_1_n_n.lhsIdx_val_of_single rfl i q
theorem rhs0_blk2 (i) (q : dot_S1000x128_S128x40_S1000x40_1_0_0_1_n_n.contr.Idx) : (dot_S1000x128_S128x40_S1000x40_1_0_0_1_n_n.rhsIdx i q 0).val = (q ⟨0, by decide⟩).val :=
  dot_S1000x128_S128x40_S1000x40_1_0_0_1_n_n.rhsIdx_val_of_single rfl i q
theorem rhs1_blk2 (i) (q : dot_S1000x128_S128x40_S1000x40_1_0_0_1_n_n.contr.Idx) : (dot_S1000x128_S128x40_S1000x40_1_0_0_1_n_n.rhsIdx i q 1).val = (i 1).val := by
  unfold DotDims.rhsIdx
  rw [dif_neg (show ¬(1 : Fin S128x40.rank) ∈ dot_S1000x128_S128x40_S1000x40_1_0_0_1_n_n.rhsBatch by decide), dif_pos (show (1 : Fin S128x40.rank) ∈ dot_S1000x128_S128x40_S1000x40_1_0_0_1_n_n.rhsNonContracting by decide)]
  rfl

/-! ## The reference's two dense layers and the two kernel bodies are `prod` -/

/-- The first dense layer of the reference is the matrix product over the 512 input features. -/
theorem dense1_eq (x : Arr Cert.ReferenceIdeal.S100000x512) (w : Arr Cert.ReferenceIdeal.S512x128) : dense1 x w = prod x w := by
  funext i
  unfold dense1
  simp only [Host.dotGeneral]
  rw [Ideal.dotGeneral_apply]
  exact sum_contr_eq_prod Cert.ReferenceIdeal.dot_S100000x512_S512x128_S100000x128_1_0_0_1_n_n rfl rfl lhs0_ref1 lhs1_ref1 rhs0_ref1 rhs1_ref1 x w i

/-- The second dense layer of the reference is the matrix product over the 128 hidden features. -/
theorem dense2_eq (x : Arr Cert.ReferenceIdeal.S100000x128) (w : Arr Cert.ReferenceIdeal.S128x40) : dense2 x w = prod x w := by
  funext i
  unfold dense2
  simp only [Host.dotGeneral]
  rw [Ideal.dotGeneral_apply]
  exact sum_contr_eq_prod Cert.ReferenceIdeal.dot_S100000x128_S128x40_S100000x40_1_0_0_1_n_n rfl rfl lhs0_ref2 lhs1_ref2 rhs0_ref2 rhs1_ref2 x w i

/-- The first kernel body on a 1000-row block: the narrowing casts are the identity on extended reals and the
    accumulator starts at zero, so what it stores is the block's matrix product with the weights. -/
theorem pay0_eq (x0 : Vec Ideal S1000x512 .f32) (x1 : Vec Ideal S512x128 .f32) : k0_pay1 (F := Ideal) x0 x1 = prod x0 x1 := by
  funext j
  unfold k0_pay1
  refine (Ideal.matmul_constant_zero_apply dot_S1000x512_S512x128_S1000x128_1_0_0_1_n_n none _ _ j).trans ?_
  exact sum_contr_eq_prod dot_S1000x512_S512x128_S1000x128_1_0_0_1_n_n rfl rfl lhs0_blk1 lhs1_blk1 rhs0_blk1 rhs1_blk1 x0 x1 j

/-- The second kernel body on a 1000-row block: the same, through a reshape to the same shape (the identity). -/
theorem pay2_eq (x0 : Vec Ideal S1000x128 .f32) (x1 : Vec Ideal S128x40 .f32) : k2_pay1 (F := Ideal) x0 x1 = prod x0 x1 := by
  funext j
  unfold k2_pay1
  refine (Ideal.matmul_constant_zero_apply dot_S1000x128_S128x40_S1000x40_1_0_0_1_n_n none _ _ j).trans ?_
  rw [shapeCast_self]
  exact sum_contr_eq_prod dot_S1000x128_S128x40_S1000x40_1_0_0_1_n_n rfl rfl lhs0_blk2 lhs1_blk2 rhs0_blk2 rhs1_blk2 x0 x1 j

/-! ## Region 0: the first dense layer, 100 row blocks of 1000 rows -/

theorem hz : (![0, 0] : Fin 2 → Nat) = fun _ => 0 := funext fun a => by fin_cases a <;> rfl

/-- The index maps of the three windows, decided over the grid: the features' window and the output's window are at
    row block `t` at point `t`, the weights' window is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the matrix product of the two whole arrays: row `p` of block `t` is row
    `1000 t + p` of the features, and the weights are read whole. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (prod (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S1000x512) hz, View.ld_unit_zero (S := S512x128) hz]
  rw [pay0_eq]
  obtain ⟨e0, e1, e2, e3, e4, e5⟩ := idx_facts0 t
  funext y
  obtain ⟨p, q, rfl⟩ : ∃ (p : Fin 1000) (q : Fin 128), y = ix2 p q := ⟨y 0, y 1, eq_ix2 y⟩
  show prod (iblk0 V c 0 t) (iblk0 V c 1 t) (ix2 p q) = prod (V c main_arg0) (V c main_arg4) (((cfg0.win 2).blk t).view.emb (ix2 p q))
  unfold prod
  refine Finset.sum_congr rfl fun k _ => mul_eq_mul_of_eq ?_ ?_
  · show V c main_arg0 (((cfg0.win 0).blk t).view.emb (ix2 p k)) = _
    refine congrArg (V c main_arg0) ?_
    funext a; apply Fin.ext
    match a with
    | ⟨0, _⟩ => show win0_0.index t (0 : Fin 2) * 1000 + 1 * p.val = win0_2.index t (0 : Fin 2) * 1000 + 1 * p.val; omega
    | ⟨1, _⟩ => show win0_0.index t (1 : Fin 2) * 512 + 1 * k.val = k.val; omega
  · show V c main_arg4 (((cfg0.win 1).blk t).view.emb (ix2 k q)) = _
    refine congrArg (V c main_arg4) ?_
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- Every row lies in the block of the point `row / 1000`: the 100 blocks of 1000 rows tile the 100000 rows. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 100 := N_0
  have hlt : (i 0).val / 1000 < cfg0.N := by rw [hN]; omega
  obtain ⟨e0, e1, e2, e3, e4, e5⟩ := idx_facts0 ⟨(i 0).val / 1000, hlt⟩
  have e4' : win0_2.index ⟨(i 0).val / 1000, hlt⟩ (0 : Fin 2) = (i 0).val / 1000 := e4
  refine ⟨⟨(i 0).val / 1000, hlt⟩, flush0_2 _, ?_⟩
  rw [mem_blk0]
  intro a
  match a with
  | ⟨0, _⟩ => show win0_2.index ⟨(i 0).val / 1000, hlt⟩ (0 : Fin 2) * 1000 ≤ (i 0).val ∧ (i 0).val < win0_2.index ⟨(i 0).val / 1000, hlt⟩ (0 : Fin 2) * 1000 + 1000; omega
  | ⟨1, _⟩ => show win0_2.index ⟨(i 0).val / 1000, hlt⟩ (1 : Fin 2) * 128 ≤ (i 1).val ∧ (i 1).val < win0_2.index ⟨(i 0).val / 1000, hlt⟩ (1 : Fin 2) * 128 + 128; omega

/-- REGION 0: after its 100 points the output array is the reference's first dense layer of the features and the
    first layer's weights as the region finds them. -/
theorem region0 (V : (c : Dev nD) → (b : Ref sig .tc) → Buf (Elt Ideal) ((c : Thread nD τ).loc b)) (c : Dev nD) :
    (dat0 (F := Ideal) V c).arrAt 2 cfg0.N = Cert.Gcn.dense1 (V c main_arg0) (V c main_arg4) :=
  ((dat0 (F := Ideal) V c).arrAt_eq_of_cover 2 (prod (V c main_arg0) (V c main_arg4)) (fun t _ => flushed0_eq V c t) cover0).trans
    (dense1_eq _ _).symm

/-! ## Region 2: the second dense layer, 100 row blocks of 1000 rows -/

/-- The index maps of the three windows, decided over the grid: the hidden layer's window and the output's window are at
    row block `t` at point `t`, the weights' window is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the matrix product of the two whole arrays: row `p` of block `t` is row
    `1000 t + p` of the hidden layer, and the weights are read whole. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (prod (V c main_v15) (V c main_arg6)) := by
  show (cfg2.win 2).cut (grid2.coords t) ((dat2 (F := Ideal) V c).after 2 t) = _
  rw [after2_2]
  unfold out2_2
  rw [View.canon_unit_zero hz]
  simp only [View.ld_unit_zero (S := S1000x128) hz, View.ld_unit_zero (S := S128x40) hz]
  rw [pay2_eq]
  obtain ⟨e0, e1, e2, e3, e4, e5⟩ := idx_facts2 t
  funext y
  obtain ⟨p, q, rfl⟩ : ∃ (p : Fin 1000) (q : Fin 40), y = ix2 p q := ⟨y 0, y 1, eq_ix2 y⟩
  show prod (iblk2 V c 0 t) (iblk2 V c 1 t) (ix2 p q) = prod (V c main_v15) (V c main_arg6) (((cfg2.win 2).blk t).view.emb (ix2 p q))
  unfold prod
  refine Finset.sum_congr rfl fun k _ => mul_eq_mul_of_eq ?_ ?_
  · show V c main_v15 (((cfg2.win 0).blk t).view.emb (ix2 p k)) = _
    refine congrArg (V c main_v15) ?_
    funext a; apply Fin.ext
    match a with
    | ⟨0, _⟩ => show win2_0.index t (0 : Fin 2) * 1000 + 1 * p.val = win2_2.index t (0 : Fin 2) * 1000 + 1 * p.val; omega
    | ⟨1, _⟩ => show win2_0.index t (1 : Fin 2) * 128 + 1 * k.val = k.val; omega
  · show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega

/-- An index of the array is in point `t`'s block iff each coordinate is in the block's range on its axis. -/
theorem mem_blk2 (t : Fin cfg2.N) (i : S100000x40.Idx) :
    i ∈ ((cfg2.win 2).blk t).view.set ↔ ∀ a : Fin 2, win2_2.index t a * S1000x40.size a ≤ (i a).val ∧ (i a).val < win2_2.index t a * S1000x40.size a + S1000x40.size a := by
  show i ∈ ((View.whole main_v16).slice (win2_2.rect t)).set ↔ _
  rw [View.set_slice_whole, Rect.mem_set_unit]
  exact Iff.rfl

/-- Every row lies in the block of the point `row / 1000`: the 100 blocks of 1000 rows tile the 100000 rows. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 100 := N_2
  have hlt : (i 0).val / 1000 < cfg2.N := by rw [hN]; omega
  obtain ⟨e0, e1, e2, e3, e4, e5⟩ := idx_facts2 ⟨(i 0).val / 1000, hlt⟩
  have e4' : win2_2.index ⟨(i 0).val / 1000, hlt⟩ (0 : Fin 2) = (i 0).val / 1000 := e4
  refine ⟨⟨(i 0).val / 1000, hlt⟩, flush2_2 _, ?_⟩
  rw [mem_blk2]
  intro a
  match a with
  | ⟨0, _⟩ => show win2_2.index ⟨(i 0).val / 1000, hlt⟩ (0 : Fin 2) * 1000 ≤ (i 0).val ∧ (i 0).val < win2_2.index ⟨(i 0).val / 1000, hlt⟩ (0 : Fin 2) * 1000 + 1000; omega
  | ⟨1, _⟩ => show win2_2.index ⟨(i 0).val / 1000, hlt⟩ (1 : Fin 2) * 40 ≤ (i 1).val ∧ (i 1).val < win2_2.index ⟨(i 0).val / 1000, hlt⟩ (1 : Fin 2) * 40 + 40; omega

/-- REGION 2: after its 100 points the output array is the reference's second dense layer of the hidden layer and the
    second layer's weights as the region finds them. -/
theorem region2 (V : (c : Dev nD) → (b : Ref sig .tc) → Buf (Elt Ideal) ((c : Thread nD τ).loc b)) (c : Dev nD) :
    (dat2 (F := Ideal) V c).arrAt 2 cfg2.N = Cert.Gcn.dense2 (V c main_v15) (V c main_arg6) :=
  ((dat2 (F := Ideal) V c).arrAt_eq_of_cover 2 (prod (V c main_v15) (V c main_arg6)) (fun t _ => flushed2_eq V c t) cover2).trans
    (dense2_eq _ _).symm

end Cert.Gcn.Dense

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.RowLayers.lean ====
/-
  The two bias layers. A region's grid point `t` holds rows 1000·t … 1000·t + 999 of its input whole, and the bias as
  one row. Region 1 writes `max (x (r, q) + b q) 0`, elementwise. Region 3 writes the log-softmax of the row
  `y = x (r, ·) + b`: `(y q − M) − log Σ_k exp (y k − M)`, `M` the row's maximum folded from −∞; the host computes the
  same expression of the same row (its extra `max (−∞) M` is `M`), the lane reductions and the host reductions being
  the same fold and the same sum over the row. Rows are whole within a block and the 100 blocks tile the rows, so
  after each region the output array is the reference's whole-array function of the arrays the region found.
-/
import proofs.«126803_j10703058501716_1_alg».proof.Proof.Gen.KernelIdeal.Frame
import proofs.«126803_j10703058501716_1_alg».proof.Proof.RefOps
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import proofs.«126803_j10703058501716_1_alg».proof.Proof.LibRowReads
import proofs.«126803_j10703058501716_1_alg».proof.Proof.LibKeepdims
import Idealize.ShloMosaic.PureOps.Ideal.Laws

noncomputable section

namespace Cert.Gcn.Rows

open Idealize.ShloMosaic Idealize.ShloMosaic.TcCoe Idealize.ShloMosaic.ValueIdx Idealize.SL.Sem
open Cert.KernelIdeal Cert.KernelIdeal.Gen
open Idealize.ShloMosaic.Pipeline (Dat)

/-! # Bias then max(·, 0): region 1 -/

theorem hz : (![0, 0] : Fin 2 → Nat) = fun _ => 0 := funext fun a => by fin_cases a <;> rfl

/-- The kernel body's value at (p, q): max (x (p,q) + bias (0,q)) 0. -/
theorem k1_pay1_apply (x0 : Vec Ideal S1000x128 .f32) (x1 : Vec Ideal S1x128 .f32) (p : Fin 1000) (q : Fin 128) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply]
  rfl

/-- A vector laid as one row, read at (0, q). -/
theorem oneRow_apply {n : Nat} (hd : (⟨1, ![n]⟩ : Shape).BroadcastsInDim ⟨2, ![1, n]⟩ ![1])
    (x : (⟨1, ![n]⟩ : Shape).Idx → EReal) (q : Fin n) :
    broadcastInDim ⟨2, ![1, n]⟩ ![1] hd x (ix2 (0 : Fin 1) q) = x (ix1 q) := by
  refine broadcastInDim_apply ![1] hd x (ix2 (0 : Fin 1) q) (ix1 q) ?_
  intro a
  match a with
  | ⟨0, _⟩ =>
    show q.val = if n = 1 then 0 else q.val
    split
    · have := q.isLt; omega
    · rfl

/-- The reference's bias-and-max at (r, q). -/
theorem biasRelu_apply (x : Cert.Gcn.Arr Cert.ReferenceIdeal.S100000x128) (b : Cert.Gcn.Arr Cert.ReferenceIdeal.S128)
    (r : Fin 100000) (q : Fin 128) :
    Cert.Gcn.biasRelu x b (ix2 r q) = max (x (ix2 r q) + b (ix1 q)) (Ideal.ofBits .f32 0x00000000#32) := by
  unfold Cert.Gcn.biasRelu
  rw [maximumf_apply, addf_apply, broadcastInDim_oneRow_apply, oneRow_apply]
  rfl

/-- The printed index maps of region 1, decided over the grid: the row blocks move with the grid point, the bias
    window stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some grid point's. -/
theorem idx_onto1 : ∀ q : Fin 100, ∃ t : Fin cfg1.N, win1_2.index t = ![q.val, 0] :=
  (by decide +kernel : ∀ q : Fin 100, ∃ t : Fin grid1.N, win1_2.index t = ![q.val, 0])

/-- The body's value on point t's blocks of any two arrays X (rows) and B (the bias as one row) is block t of the
    reference's bias-and-max of X and the bias vector. -/
theorem blk1_eq (t : Fin cfg1.N) (X : S100000x128.Idx → EReal) (B : S1x128.Idx → EReal)
    (b : Cert.Gcn.Arr Cert.ReferenceIdeal.S128) (hb : ∀ q : Fin 128, B (ix2 (0 : Fin 1) q) = b (ix1 q)) :
    k1_pay1 (F := Ideal) (((cfg1.win 0).blk t).view.read (Elt Ideal) X) (((cfg1.win 1).blk t).view.read (Elt Ideal) B)
      = ((cfg1.win 2).blk t).view.read (Elt Ideal) (Cert.Gcn.biasRelu X b) := by
  obtain ⟨e0, e1, e2, e3, e4, e5⟩ := idx_facts1 t
  have ht : t.val < 100 := lt_of_lt_of_eq t.isLt N_1
  funext y
  obtain ⟨p, q, rfl⟩ : ∃ (p : Fin 1000) (q : Fin 128), y = ix2 p q := ⟨y 0, y 1, eq_ix2 y⟩
  refine (k1_pay1_apply _ _ p q).trans ?_
  show max (X (((cfg1.win 0).blk t).view.emb (ix2 p q)) + B (((cfg1.win 1).blk t).view.emb (ix2 (0 : Fin 1) q))) _
    = Cert.Gcn.biasRelu X b (((cfg1.win 2).blk t).view.emb (ix2 p q))
  have h0 : ((cfg1.win 0).blk t).view.emb (ix2 p q) = ix2 (⟨t.val * 1000 + p.val, by omega⟩ : Fin 100000) q := by
    funext a; apply Fin.ext
    match a with
    | ⟨0, _⟩ => show win1_0.index t (0 : Fin 2) * 1000 + 1 * p.val = t.val * 1000 + p.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 p q) = ix2 (⟨t.val * 1000 + p.val, by omega⟩ : Fin 100000) q := by
    funext a; apply Fin.ext
    match a with
    | ⟨0, _⟩ => show win1_2.index t (0 : Fin 2) * 1000 + 1 * p.val = t.val * 1000 + p.val; omega
    | ⟨1, _⟩ => show win1_2.index t (1 : Fin 2) * 128 + 1 * q.val = q.val; omega
  rw [h0, h1, h2, hb, biasRelu_apply]

/-- What grid point t writes back is block t of the reference's bias-and-max of the two input arrays. -/
theorem flushed1_eq (V : (c : Dev nD) → (b : Ref sig .tc) → Buf (Elt Ideal) ((c : Thread nD τ).loc b)) (c : Dev nD)
    (b : Cert.Gcn.Arr Cert.ReferenceIdeal.S128) (hb : ∀ q : Fin 128, V c main_v14 (ix2 (0 : Fin 1) q) = b (ix1 q))
    (t : Fin cfg1.N) :
    (dat1 (F := Ideal) V c).flushed 2 t = ((cfg1.win 2).blk t).view.read (Elt Ideal) (Cert.Gcn.biasRelu (V c main_v13) b) := by
  show (cfg1.win 2).cut (grid1.coords t) ((dat1 (F := Ideal) V c).after 2 t) = _
  rw [after1_2]
  unfold out1_2
  rw [View.canon_unit_zero hz]
  simp only [View.ld_unit_zero (S := S1000x128) hz, View.ld_unit_zero (S := S1x128) hz]
  exact blk1_eq t (V c main_v13) (V c main_v14) b hb
/-- An index of the output array is in point t's block iff each coordinate is in the block's range on its axis. -/
theorem mem_blk1 (t : Fin cfg1.N) (i : S100000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v15).slice (win1_2.rect t)).set ↔ _
  rw [View.set_slice_whole, Rect.mem_set_unit]
  exact Iff.rfl

/-- The row blocks cover the output array: index i lies in the block of the point (i 0) / 1000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- REGION 1: the output array after the run is the reference's bias-and-max of the region's two input arrays. -/
theorem region1 (V : (c : Dev nD) → (b : Ref sig .tc) → Buf (Elt Ideal) ((c : Thread nD τ).loc b)) (c : Dev nD)
    (b : Cert.Gcn.Arr Cert.ReferenceIdeal.S128) (hb : ∀ q : Fin 128, V c main_v14 (ix2 (0 : Fin 1) q) = b (ix1 q)) :
    (dat1 (F := Ideal) V c).arrAt 2 cfg1.N = Cert.Gcn.biasRelu (V c main_v13) b :=
  (dat1 (F := Ideal) V c).arrAt_eq_of_cover 2 (Cert.Gcn.biasRelu (V c main_v13) b) (fun t _ => flushed1_eq V c b hb t) cover1

/-! # Bias then the row-wise log-softmax: region 3 -/

/-- The maximum of a row of 40 entries, taken from the bit pattern of −∞: the fold of max over the row. -/
def rowMax (row : Fin 40 → EReal) : EReal :=
  (Finset.univ : Finset (Fin 40)).fold max (Ideal.ofBits .f32 0xFF800000#32) row

/-- The log-softmax of one row at lane q: (row q − M) − log Σ exp (row k − M), M the row's maximum. -/
def lsmRow (row : Fin 40 → EReal) (q : Fin 40) : EReal :=
  (row q - rowMax row) - Ideal.log (∑ k : Fin 40, Ideal.exp (row k - rowMax row))

theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The kernel's shifted block: a block minus its lane maxima (cast to a column and broadcast along the lanes),
    read at (p, k). -/
theorem kShift_apply (y : FVec Ideal S1000x40 .f32) (p : Fin 1000) (k : Fin 40) :
    subf y (broadcastTo S1000x40 (shapeCast S1000x1
        (multiReduction (F := Ideal) .maximumf [1] S1000 y 0xFF800000#32 reduces_S1000x40_S1000 (.inl rfl) rfl)
        shapeCasts_S1000_S1000x1) broadcasts_S1000x1_S1000x40) (ix2 p k)
      = y (ix2 p k) - rowMax (fun j => y (ix2 p j)) := by
  rw [subf_apply, Cert.Keepdims.broadcastTo_a1_ab_apply, Cert.Keepdims.shapeCast_a_a1_apply]
  exact congrArg (fun m => y (ix2 p k) - m)
    (Cert.RowReads.rowMax_apply y 0xFF800000#32 reduces_S1000x40_S1000 (.inl rfl) rfl p)

/-- The kernel's log of the lane sums of exp z (cast to a column and broadcast along the lanes), read at (p, q). -/
theorem kLse_apply (z : FVec Ideal S1000x40 .f32) (p : Fin 1000) (q : Fin 40) :
    broadcastTo S1000x40 (log (shapeCast S1000x1
        (multiReduction (F := Ideal) .add [1] S1000 (exp z) 0x00000000#32 reduces_S1000x40_S1000 (.inl rfl) rfl)
        shapeCasts_S1000_S1000x1)) broadcasts_S1000x1_S1000x40 (ix2 p q)
      = Ideal.log (∑ k : Fin 40, Ideal.exp (z (ix2 p k))) := by
  rw [Cert.Keepdims.broadcastTo_a1_ab_apply, log_apply, Cert.Keepdims.shapeCast_a_a1_apply]
  exact congrArg Ideal.log
    (Cert.RowReads.rowSum_apply (exp z) 0x00000000#32 reduces_S1000x40_S1000 (.inl rfl) rfl p)

/-- The same with z the shifted block: log Σ exp (y (p, k) − M), M row p's maximum. -/
theorem kLseShift_apply (y : FVec Ideal S1000x40 .f32) (p : Fin 1000) (q : Fin 40) :
    broadcastTo S1000x40 (log (shapeCast S1000x1
        (multiReduction (F := Ideal) .add [1] S1000
          (exp (subf y (broadcastTo S1000x40 (shapeCast S1000x1
            (multiReduction (F := Ideal) .maximumf [1] S1000 y 0xFF800000#32 reduces_S1000x40_S1000 (.inl rfl) rfl)
            shapeCasts_S1000_S1000x1) broadcasts_S1000x1_S1000x40)))
          0x00000000#32 reduces_S1000x40_S1000 (.inl rfl) rfl)
        shapeCasts_S1000_S1000x1)) broadcasts_S1000x1_S1000x40 (ix2 p q)
      = Ideal.log (∑ k : Fin 40, Ideal.exp (y (ix2 p k) - rowMax (fun j => y (ix2 p j)))) := by
  rw [kLse_apply]
  exact congrArg Ideal.log (Finset.sum_congr rfl fun k _ => congrArg Ideal.exp (kShift_apply y p k))

/-- The kernel body's value at (p, q): the log-softmax of row p of (block + bias row). -/
theorem k3_pay1_apply (x0 : Vec Ideal S1000x40 .f32) (x1 : Vec Ideal S1x40 .f32) (p : Fin 1000) (q : Fin 40) :
    k3_pay1 x0 x1 (ix2 p q) = lsmRow (fun j => x0 (ix2 p j) + x1 (ix2 (0 : Fin 1) j)) q := by
  have hy : ∀ j : Fin 40, addf (F := Ideal) (s := S1000x40) (φ := .f32) x0 (broadcastTo S1000x40 x1 broadcasts_S1x40_S1000x40) (ix2 p j)
      = x0 (ix2 p j) + x1 (ix2 (0 : Fin 1) j) := fun j => by
    rw [addf_apply, broadcastTo_1b_ab_apply]
  unfold k3_pay1
  simp only [shapeCast_self]
  rw [subf_apply, kShift_apply, kLseShift_apply]
  unfold lsmRow
  simp only [hy]

/-- A vector laid as a column, read at (r, u). -/
theorem colOf_apply {a : Nat} (hd : (⟨1, ![a]⟩ : Shape).BroadcastsInDim ⟨2, ![a, 1]⟩ ![0])
    (x : (⟨1, ![a]⟩ : Shape).Idx → EReal) (r : Fin a) (u : Fin 1) :
    broadcastInDim ⟨2, ![a, 1]⟩ ![0] hd x (ix2 r u) = x (ix1 r) := by
  refine broadcastInDim_apply ![0] hd x (ix2 r u) (ix1 r) ?_
  intro ax
  match ax with
  | ⟨0, _⟩ =>
    show r.val = if a = 1 then 0 else r.val
    split
    · have := r.isLt; omega
    · rfl

/-- A column broadcast along the lanes, read at (r, k). -/
theorem bcastCol_apply {a b : Nat} (hd : (⟨2, ![a, 1]⟩ : Shape).BroadcastsInDim ⟨2, ![a, b]⟩ ![0, 1])
    (x : (⟨2, ![a, 1]⟩ : Shape).Idx → EReal) (r : Fin a) (k : Fin b) :
    broadcastInDim ⟨2, ![a, b]⟩ ![0, 1] hd x (ix2 r k) = x (ix2 r (0 : Fin 1)) := by
  refine broadcastInDim_apply ![0, 1] hd x (ix2 r k) (ix2 r (0 : Fin 1)) ?_
  intro ax
  match ax with
  | ⟨0, _⟩ =>
    show r.val = if a = 1 then 0 else r.val
    split
    · have := r.isLt; omega
    · rfl
  | ⟨1, _⟩ => rfl

/-- The reference's shifted array: an array minus its row maxima (each the larger of −∞ and the row's fold of max
    from −∞, which is that fold), read at (r, k). -/
theorem rShift_apply (y : FVec Ideal ⟨2, ![100000, 40]⟩ .f32)
    (h1 : (⟨2, ![100000, 1]⟩ : Shape).BroadcastsInDim ⟨2, ![100000, 40]⟩ ![0, 1])
    (h2 : (⟨1, ![100000]⟩ : Shape).BroadcastsInDim ⟨2, ![100000, 1]⟩ ![0])
    (h3 : (⟨0, ![]⟩ : Shape).BroadcastsInDim ⟨1, ![100000]⟩ ![])
    (h4 : (⟨2, ![100000, 40]⟩ : Shape).ReducesTo [1] ⟨1, ![100000]⟩) (h5 : 0 < (⟨0, ![]⟩ : Shape).numel)
    (r : Fin 100000) (k : Fin 40) :
    subf y (broadcastInDim ⟨2, ![100000, 40]⟩ ![0, 1] h1 (broadcastInDim ⟨2, ![100000, 1]⟩ ![0] h2
      (maximumf (broadcastInDim ⟨1, ![100000]⟩ ![] h3 (constant (F := Ideal) ⟨0, ![]⟩ .f32 0xFF800000#32))
        (Host.reduce FloatOps.maximumf y (constant (F := Ideal) ⟨0, ![]⟩ .f32 0xFF800000#32) h4 h5)))) (ix2 r k)
      = y (ix2 r k) - rowMax (fun j => y (ix2 r j)) := by
  rw [subf_apply, bcastCol_apply, colOf_apply, maximumf_apply, broadcastInDim_scalar_apply, constant_apply,
    Cert.RowReads.hostRowMax_apply y _ h4 (by decide) h5 r, constant_apply]
  exact congrArg (fun m => y (ix2 r k) - m) (max_eq_right ((Finset.le_fold_max _).mpr (Or.inl le_rfl)))

/-- The reference's log-softmax at (r, q): the log-softmax of row r. -/
theorem logSoftmax_apply (y : Cert.Gcn.Arr Cert.ReferenceIdeal.S100000x40) (r : Fin 100000) (q : Fin 40) :
    Cert.Gcn.logSoftmax y (ix2 r q) = lsmRow (fun j => y (ix2 r j)) q := by
  unfold Cert.Gcn.logSoftmax
  simp only []
  rw [subf_apply, rShift_apply, bcastCol_apply, hostLog_apply, colOf_apply, hostReduceAdd_apply,
    Ideal.hostReduceAdd_single Cert.ReferenceIdeal.Gen.reducesTo_S100000x40_S100000_d1 (by decide), constant_apply,
    Ideal.ofBits_zero_f32, zero_add]
  unfold lsmRow
  refine congrArg (fun s => y (ix2 r q) - rowMax (fun j => y (ix2 r j)) - Ideal.log s) ?_
  refine Finset.sum_congr rfl fun k _ => ?_
  rw [Cert.RowReads.lift_last, hostExp_apply]
  exact congrArg Ideal.exp (rShift_apply y _ _ _ _ _ r _)

/-- The reference's bias-then-log-softmax at (r, q): the log-softmax of row r of (x + bias). -/
theorem biasLogSoftmax_apply (x : Cert.Gcn.Arr Cert.ReferenceIdeal.S100000x40) (b : Cert.Gcn.Arr Cert.ReferenceIdeal.S40)
    (r : Fin 100000) (q : Fin 40) :
    Cert.Gcn.biasLogSoftmax x b (ix2 r q) = lsmRow (fun j => x (ix2 r j) + b (ix1 j)) q := by
  unfold Cert.Gcn.biasLogSoftmax
  rw [logSoftmax_apply]
  refine congrArg (fun row => lsmRow row q) (funext fun j => ?_)
  rw [addf_apply, broadcastInDim_oneRow_apply, oneRow_apply]

/-- The printed index maps of region 3, decided over the grid: the row blocks move with the grid point, the bias
    window stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some grid point's. -/
theorem idx_onto3 : ∀ q : Fin 100, ∃ t : Fin cfg3.N, win3_2.index t = ![q.val, 0] :=
  (by decide +kernel : ∀ q : Fin 100, ∃ t : Fin grid3.N, win3_2.index t = ![q.val, 0])

/-- The body's value on point t's blocks of any two arrays X (rows) and B (the bias as one row) is block t of the
    reference's bias-then-log-softmax of X and the bias vector: row by row the same expression of the row. -/
theorem blk3_eq (t : Fin cfg3.N) (X : S100000x40.Idx → EReal) (B : S1x40.Idx → EReal)
    (b : Cert.Gcn.Arr Cert.ReferenceIdeal.S40) (hb : ∀ q : Fin 40, B (ix2 (0 : Fin 1) q) = b (ix1 q)) :
    k3_pay1 (F := Ideal) (((cfg3.win 0).blk t).view.read (Elt Ideal) X) (((cfg3.win 1).blk t).view.read (Elt Ideal) B)
      = ((cfg3.win 2).blk t).view.read (Elt Ideal) (Cert.Gcn.biasLogSoftmax X b) := by
  obtain ⟨e0, e1, e2, e3, e4, e5⟩ := idx_facts3 t
  have ht : t.val < 100 := lt_of_lt_of_eq t.isLt N_3
  funext y
  obtain ⟨p, q, rfl⟩ : ∃ (p : Fin 1000) (q : Fin 40), y = ix2 p q := ⟨y 0, y 1, eq_ix2 y⟩
  refine (k3_pay1_apply _ _ p q).trans ?_
  have h0 : ∀ j : Fin 40, ((cfg3.win 0).blk t).view.emb (ix2 p j) = ix2 (⟨t.val * 1000 + p.val, by omega⟩ : Fin 100000) j := by
    intro j; funext a; apply Fin.ext
    match a with
    | ⟨0, _⟩ => show win3_0.index t (0 : Fin 2) * 1000 + 1 * p.val = t.val * 1000 + p.val; omega
    | ⟨1, _⟩ => show win3_0.index t (1 : Fin 2) * 40 + 1 * j.val = j.val; omega
  have h1 : ∀ j : Fin 40, ((cfg3.win 1).blk t).view.emb (ix2 (0 : Fin 1) j) = ix2 (0 : Fin 1) j := by
    intro j; funext a; apply Fin.ext
    match a with
    | ⟨0, _⟩ => show win3_1.index t (0 : Fin 2) * 1 + 1 * 0 = 0; omega
    | ⟨1, _⟩ => show win3_1.index t (1 : Fin 2) * 40 + 1 * j.val = j.val; omega
  have h2 : ((cfg3.win 2).blk t).view.emb (ix2 p q) = ix2 (⟨t.val * 1000 + p.val, by omega⟩ : Fin 100000) q := by
    funext a; apply Fin.ext
    match a with
    | ⟨0, _⟩ => show win3_2.index t (0 : Fin 2) * 1000 + 1 * p.val = t.val * 1000 + p.val; omega
    | ⟨1, _⟩ => show win3_2.index t (1 : Fin 2) * 40 + 1 * q.val = q.val; omega
  show lsmRow (fun j => X (((cfg3.win 0).blk t).view.emb (ix2 p j)) + B (((cfg3.win 1).blk t).view.emb (ix2 (0 : Fin 1) j))) q
    = Cert.Gcn.biasLogSoftmax X b (((cfg3.win 2).blk t).view.emb (ix2 p q))
  rw [h2, biasLogSoftmax_apply]
  refine congrArg (fun row => lsmRow row q) (funext fun j => ?_)
  simp only [h0, h1, hb]

/-- What grid point t writes back is block t of the reference's bias-then-log-softmax of the two input arrays. -/
theorem flushed3_eq (V : (c : Dev nD) → (b : Ref sig .tc) → Buf (Elt Ideal) ((c : Thread nD τ).loc b)) (c : Dev nD)
    (b : Cert.Gcn.Arr Cert.ReferenceIdeal.S40) (hb : ∀ q : Fin 40, V c main_v30 (ix2 (0 : Fin 1) q) = b (ix1 q))
    (t : Fin cfg3.N) :
    (dat3 (F := Ideal) V c).flushed 2 t = ((cfg3.win 2).blk t).view.read (Elt Ideal) (Cert.Gcn.biasLogSoftmax (V c main_v29) b) := by
  show (cfg3.win 2).cut (grid3.coords t) ((dat3 (F := Ideal) V c).after 2 t) = _
  rw [after3_2]
  unfold out3_2
  rw [View.canon_unit_zero hz]
  simp only [View.ld_unit_zero (S := S1000x40) hz, View.ld_unit_zero (S := S1x40) hz]
  exact blk3_eq t (V c main_v29) (V c main_v30) b hb

/-- An index of the output array is in point t's block iff each coordinate is in the block's range on its axis. -/
theorem mem_blk3 (t : Fin cfg3.N) (i : S100000x40.Idx) :
    i ∈ ((cfg3.win 2).blk t).view.set ↔ ∀ a : Fin 2, win3_2.index t a * S1000x40.size a ≤ (i a).val ∧ (i a).val < win3_2.index t a * S1000x40.size a + S1000x40.size a := by
  show i ∈ ((View.whole main_v31).slice (win3_2.rect t)).set ↔ _
  rw [View.set_slice_whole, Rect.mem_set_unit]
  exact Iff.rfl

/-- The row blocks cover the output array: index i lies in the block of the point (i 0) / 1000. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto3 ⟨(i 0).val / 1000, by omega⟩
  have q0 : win3_2.index t (0 : Fin 2) = (i 0).val / 1000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 40 ≤ (i 1).val ∧ (i 1).val < win3_2.index t (1 : Fin 2) * 40 + 40; omega

/-- REGION 3: the output array after the run is the reference's bias-then-log-softmax of the region's two input
    arrays. -/
theorem region3 (V : (c : Dev nD) → (b : Ref sig .tc) → Buf (Elt Ideal) ((c : Thread nD τ).loc b)) (c : Dev nD)
    (b : Cert.Gcn.Arr Cert.ReferenceIdeal.S40) (hb : ∀ q : Fin 40, V c main_v30 (ix2 (0 : Fin 1) q) = b (ix1 q)) :
    (dat3 (F := Ideal) V c).arrAt 2 cfg3.N = Cert.Gcn.biasLogSoftmax (V c main_v29) b :=
  (dat3 (F := Ideal) V c).arrAt_eq_of_cover 2 (Cert.Gcn.biasLogSoftmax (V c main_v29) b) (fun t _ => flushed3_eq V c b hb t) cover3

end Cert.Gcn.Rows

end
-- ==== Proof.RefValue.lean ====
/-
  The reference program's result, read off its run. Its 58 host operations fall into four consecutive stretches: the
  first product, its propagation along the edges and the first bias (20 operations); max(·, 0) (3); the second
  product, its propagation and the second bias (20); the row-wise log-softmax (15). Each stretch is read from ANY
  contents `U` of the buffers — the value it leaves in its last buffer as the whole-array functions of RefOps, and
  the arguments it leaves untouched — and the four readings compose to `Cert.Gcn.network` of the launched arguments.
-/
import proofs.«126803_j10703058501716_1_alg».proof.Proof.RefRan
import proofs.«126803_j10703058501716_1_alg».proof.Proof.RefOps

noncomputable section

namespace Cert.Gcn.Ref

open Cert.ReferenceIdeal Cert.ReferenceIdeal.Gen Idealize.ShloMosaic Idealize.ShloMosaic.TcCoe Idealize.SL.Sem Idealize.ShloMosaic.StableHlo

/-- A fold over two stretches is the second stretch's fold over the first's. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by
    rw [List.cons_append, after_cons, after_cons]
    exact after_append l₁ l₂ _

variable {F : FTy → Type} [FloatOps F]

/-- The first product, its propagation, the first bias. -/
abbrev opsA : List (HloOp τ sig (Elt F)) :=
  [ binary main_arg0 main_arg4 main_v0 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg1 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg1 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg1 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)) ]
/-- max(·, 0). -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf ]
/-- The second product, its propagation, the second bias. -/
abbrev opsC : List (HloOp τ sig (Elt F)) :=
  [ binary main_v17 main_arg6 main_v18 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_arg1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_arg1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v27 (broadcastInDim S1600000x40 ![0, 1] bcast_S1600000x1_S1600000x40_0_1 : (⟨S1600000x1, .f32⟩ : BufTy).Contents (Elt F) → (⟨S1600000x40, .f32⟩ : BufTy).Contents (Elt F)),
    binary main_v27 main_v26 main_v28 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v29 (broadcastInDim S100000x40 ![] bcast_S_S100000x40 : (⟨S_, .f32⟩ : BufTy).Contents (Elt F) → (⟨S100000x40, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg7 main_v32 (broadcastInDim S1x40 ![1] bcast_S40_S1x40_1 : (⟨S40, .f32⟩ : BufTy).Contents (Elt F) → (⟨S1x40, .f32⟩ : BufTy).Contents (Elt F)),
    unary main_v32 main_v33 (broadcastInDim S100000x40 ![0, 1] bcast_S1x40_S100000x40_0_1 : (⟨S1x40, .f32⟩ : BufTy).Contents (Elt F) → (⟨S100000x40, .f32⟩ : BufTy).Contents (Elt F)),
    binary main_v31 main_v33 main_v34 (addf : (⟨S100000x40, .f32⟩ : BufTy).Contents (Elt F) → (⟨S100000x40, .f32⟩ : BufTy).Contents (Elt F) → (⟨S100000x40, .f32⟩ : BufTy).Contents (Elt F)) ]
/-- The row-wise log-softmax, its reduction to the row maxima a parameter `g` (so that reading the stretch never opens
    that reduction). -/
abbrev opsDg (g : (⟨S100000x40, .f32⟩ : BufTy).Contents (Elt F) → (⟨S_, .f32⟩ : BufTy).Contents (Elt F) → (⟨S100000, .f32⟩ : BufTy).Contents (Elt F)) : List (HloOp τ sig (Elt F)) :=
  [ TRef.nullary (TRef.of (T := ⟨S_, .f32⟩) main_call1_cst) (constant S_ .f32 0xFF800000#32),
    TRef.binary (TRef.of (T := ⟨S100000x40, .f32⟩) main_v34) (TRef.of (T := ⟨S_, .f32⟩) main_call1_cst) (TRef.of (T := ⟨S100000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v34) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v35) subf ]

/-- The row maxima: the host's reduction by maximum along the row, from the initial value. -/
abbrev rowMaxima : (⟨S100000x40, .f32⟩ : BufTy).Contents (Elt F) → (⟨S_, .f32⟩ : BufTy).Contents (Elt F) → (⟨S100000, .f32⟩ : BufTy).Contents (Elt F) :=
  fun x v => Host.reduce FloatOps.maximumf x v reducesTo_S100000x40_S100000_d1 h_S_
/-- The row-wise log-softmax as the program has it. -/
abbrev opsD : List (HloOp τ sig (Elt F)) := opsDg rowMaxima

/-- The program's operations are the four stretches in order. -/
theorem ops_split : (Cert.ReferenceIdeal.Ran.ops : List (HloOp τ sig (Elt F))) = opsA ++ (opsB ++ (opsC ++ opsD)) := rfl

section Stretches
variable (U : Valuation τ sig (Elt Ideal))

theorem stretchA_v16 : after (opsA (F := Ideal)) U (Proc.devRef .tc main_v16)
    = addf (Cert.Gcn.spread128 (Cert.Gcn.dense1 (U (Proc.devRef .tc main_arg0)) (U (Proc.devRef .tc main_arg4)))
        (U (Proc.devRef .tc main_arg1)) (U (Proc.devRef .tc main_arg2)) (U (Proc.devRef .tc main_arg3)))
      (broadcastInDim S100000x128 ![0, 1] Facts₀.bcast_S1x128_S100000x128_0_1 (broadcastInDim S1x128 ![1] Facts₀.bcast_S128_S1x128_1 (U (Proc.devRef .tc main_arg5)))) := by
  after_results_simp <;> rfl
theorem stretchA_arg1 : after (opsA (F := Ideal)) U (Proc.devRef .tc main_arg1) = U (Proc.devRef .tc main_arg1) := by after_results_simp <;> rfl
theorem stretchA_arg2 : after (opsA (F := Ideal)) U (Proc.devRef .tc main_arg2) = U (Proc.devRef .tc main_arg2) := by after_results_simp <;> rfl
theorem stretchA_arg3 : after (opsA (F := Ideal)) U (Proc.devRef .tc main_arg3) = U (Proc.devRef .tc main_arg3) := by after_results_simp <;> rfl
theorem stretchA_arg6 : after (opsA (F := Ideal)) U (Proc.devRef .tc main_arg6) = U (Proc.devRef .tc main_arg6) := by after_results_simp <;> rfl
theorem stretchA_arg7 : after (opsA (F := Ideal)) U (Proc.devRef .tc main_arg7) = U (Proc.devRef .tc main_arg7) := by after_results_simp <;> rfl

theorem stretchB_v17 : after (opsB (F := Ideal)) U (Proc.devRef .tc main_v17)
    = maximumf (U (Proc.devRef .tc main_v16) : Cert.Gcn.Arr S100000x128)
        (broadcastInDim S100000x128 ![] Facts₀.bcast_S_S100000x128 (constant (F := Ideal) S_ .f32 0x00000000#32)) := by
  after_results_simp <;> rfl
theorem stretchB_arg1 : after (opsB (F := Ideal)) U (Proc.devRef .tc main_arg1) = U (Proc.devRef .tc main_arg1) := by after_results_simp <;> rfl
theorem stretchB_arg2 : after (opsB (F := Ideal)) U (Proc.devRef .tc main_arg2) = U (Proc.devRef .tc main_arg2) := by after_results_simp <;> rfl
theorem stretchB_arg3 : after (opsB (F := Ideal)) U (Proc.devRef .tc main_arg3) = U (Proc.devRef .tc main_arg3) := by after_results_simp <;> rfl
theorem stretchB_arg6 : after (opsB (F := Ideal)) U (Proc.devRef .tc main_arg6) = U (Proc.devRef .tc main_arg6) := by after_results_simp <;> rfl
theorem stretchB_arg7 : after (opsB (F := Ideal)) U (Proc.devRef .tc main_arg7) = U (Proc.devRef .tc main_arg7) := by after_results_simp <;> rfl

theorem stretchC_v34 : after (opsC (F := Ideal)) U (Proc.devRef .tc main_v34)
    = addf (Cert.Gcn.spread40 (Cert.Gcn.dense2 (U (Proc.devRef .tc main_v17)) (U (Proc.devRef .tc main_arg6)))
        (U (Proc.devRef .tc main_arg1)) (U (Proc.devRef .tc main_arg2)) (U (Proc.devRef .tc main_arg3)))
      (broadcastInDim S100000x40 ![0, 1] Facts₀.bcast_S1x40_S100000x40_0_1 (broadcastInDim S1x40 ![1] Facts₀.bcast_S40_S1x40_1 (U (Proc.devRef .tc main_arg7)))) := by
  after_results_simp <;> rfl

/-- The log-softmax of RefOps with the row maxima a parameter. -/
def logSoftmaxWith (g : (⟨S100000x40, .f32⟩ : BufTy).Contents (Elt Ideal) → (⟨S_, .f32⟩ : BufTy).Contents (Elt Ideal) → (⟨S100000, .f32⟩ : BufTy).Contents (Elt Ideal)) (y : Cert.Gcn.Arr S100000x40) : Cert.Gcn.Arr S100000x40 :=
  let shifted : Cert.Gcn.Arr S100000x40 :=
    subf y (broadcastInDim S100000x40 ![0, 1] Facts₀.bcast_S100000x1_S100000x40_0_1 (broadcastInDim S100000x1 ![0] Facts₀.bcast_S100000_S100000x1_0
      (maximumf (broadcastInDim S100000 ![] Facts₀.bcast_S_S100000 (constant (F := Ideal) S_ .f32 0xFF800000#32))
        (g y (constant (F := Ideal) S_ .f32 0xFF800000#32)))))
  subf shifted (broadcastInDim S100000x40 ![0, 1] Facts₀.bcast_S100000x1_S100000x40_0_1 (Host.log (broadcastInDim S100000x1 ![0] Facts₀.bcast_S100000_S100000x1_0
    (Host.reduceAdd (Host.exp shifted) (constant (F := Ideal) S_ .f32 0x00000000#32) Facts₀.reducesTo_S100000x40_S100000_d1 Facts₀.h_S_))))

set_option maxHeartbeats 50000 in
theorem logSoftmax_eq (y : Cert.Gcn.Arr S100000x40) : Cert.Gcn.logSoftmax y = logSoftmaxWith (rowMaxima (F := Ideal)) y := rfl

theorem stretchDg (g : (⟨S100000x40, .f32⟩ : BufTy).Contents (Elt Ideal) → (⟨S_, .f32⟩ : BufTy).Contents (Elt Ideal) → (⟨S100000, .f32⟩ : BufTy).Contents (Elt Ideal)) :
    after (opsDg (F := Ideal) g) U (Proc.devRef .tc main_v35) = logSoftmaxWith g (U (Proc.devRef .tc main_v34)) := by
  after_results_simp <;> rfl

theorem stretchD_v35 : after (opsD (F := Ideal)) U (Proc.devRef .tc main_v35) = Cert.Gcn.logSoftmax (U (Proc.devRef .tc main_v34)) :=
  (stretchDg U rowMaxima).trans (logSoftmax_eq _).symm

/-- THE RESULT BUFFER after all 58 operations, from any contents: the network of the eight argument buffers. -/
theorem result_after : after (Cert.ReferenceIdeal.Ran.ops (F := Ideal)) U (Proc.devRef .tc main_v35)
    = Cert.Gcn.network (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) := by
  rw [ops_split, after_append, after_append, after_append]
  unfold Cert.Gcn.network Cert.Gcn.biasLogSoftmax
  refine (stretchD_v35 _).trans (congrArg Cert.Gcn.logSoftmax ?_)
  refine (stretchC_v34 _).trans ?_
  rw [stretchB_v17, stretchB_arg1, stretchB_arg2, stretchB_arg3, stretchB_arg6, stretchB_arg7,
    stretchA_v16, stretchA_arg1, stretchA_arg2, stretchA_arg3, stretchA_arg6, stretchA_arg7]
  rfl

end Stretches

set_option maxRecDepth 8192 in
set_option maxHeartbeats 2000000 in
/-- On every device, from any memory with zero counters: every weakly fair execution of the reference's @main
    terminates with the result at the network of the launched arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (result_after (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (Cert.ReferenceIdeal.Ran.ran m ρ)

end Cert.Gcn.Ref

end
-- ==== Proof.lean ====
/-
  A two-layer graph convolution: h₁ = X·W₁; a₁ = the propagation of h₁ along the weighted edges (row dst e
  accumulates weight e · h₁(src e)); x₁ = max(a₁ + b₁, 0); h₂ = x₁·W₂; a₂ = the propagation of h₂; the result is the
  row-wise log-softmax of a₂ + b₂. The kernel program computes the two products, the bias-and-max and the
  bias-and-log-softmax in four pipelined regions over blocks of 1000 rows, and the two propagations on the host between
  them; the reference computes all six steps on the host. Over the extended reals the two agree step by step: a
  product of a block of rows is that block of the whole product (the contraction is the same sum over the feature
  axis, and the change of float format on the way into the product is the identity); the bias steps are elementwise;
  the log-softmax is row-wise, and a block of rows holds whole rows; the propagations are the same host operations on
  both sides. No law of arithmetic beyond `max ⊥ a = a` is used, and finiteness of the inputs is never needed.

  Modules: RefOps (the reference's six steps as whole-array functions and their composition `network`), DenseLayers
  (regions 0 and 2: the products, over LibMatProd's one-axis contraction as a matrix product), RowLayers (regions 1 and
  3: the bias steps, over LibRowReads' row reductions and LibKeepdims' column casts), KernelRun (the kernel program's run
  with its result named), Walk (that result read back through the six segments: it is `network` of the arguments),
  RefRan and RefValue (the reference's run and its result: `network` of the arguments).
-/
import proofs.«126803_j10703058501716_1_alg».proof.Defs
import proofs.«126803_j10703058501716_1_alg».proof.Proof.Gen.Kernel
import proofs.«126803_j10703058501716_1_alg».proof.Proof.Gen.Kernel.Frame
import proofs.«126803_j10703058501716_1_alg».proof.Proof.Gen.KernelIdeal
import proofs.«126803_j10703058501716_1_alg».proof.Proof.Gen.KernelIdeal.Frame
import proofs.«126803_j10703058501716_1_alg».proof.Proof.Gen.ReferenceIdeal
import proofs.«126803_j10703058501716_1_alg».proof.Proof.Gen.Pre_finite_inputs
import proofs.«126803_j10703058501716_1_alg».proof.Proof.KernelRun
import proofs.«126803_j10703058501716_1_alg».proof.Proof.Walk
import proofs.«126803_j10703058501716_1_alg».proof.Proof.DenseLayers
import proofs.«126803_j10703058501716_1_alg».proof.Proof.RowLayers
import proofs.«126803_j10703058501716_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.Gcn.Ref.run m ρ)

/-- The idealization rewrote nothing. -/
theorem preserves : Cert.preserves_Kernel_KernelIdeal := trivial

/-- Both idealized programs, from memories that agree on the eight arguments, end with the result array at
    `network` of those arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.Walk.result_eq m ρ c Cert.Gcn.Dense.region0 Cert.Gcn.Rows.region1
          Cert.Gcn.Dense.region2 Cert.Gcn.Rows.region3), (h c).2⟩)
      (Cert.KernelIdeal.Whole.run (F := Ideal) m ρ)
  · refine (θ_run Cert.ReferenceIdeal.defs _ _).mono (fun _ h c => ⟨(h c).1.trans ?_, (h c).2⟩) (Cert.Gcn.Ref.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
